-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x512 : Shape := ⟨3, ![4, 256, 512]⟩
abbrev S4x64x512 : Shape := ⟨3, ![4, 64, 512]⟩
abbrev S1024x512 : Shape := ⟨2, ![1024, 512]⟩
abbrev S512 : Shape := ⟨1, ![512]⟩
abbrev S512x1024 : Shape := ⟨2, ![512, 1024]⟩
abbrev S_ : Shape := ⟨0, ![]⟩

class Facts : Prop where
  bcast_S_S4x256x512 : S_.BroadcastsInDim S4x256x512 (![] : Fin 0 → Fin S4x256x512.rank)
  reducesTo_S4x256x512_S_d0_1_2 : S4x256x512.ReducesTo [0, 1, 2] S_
  h_S_ : 0 < S_.numel
  bcast_S_S4x64x512 : S_.BroadcastsInDim S4x64x512 (![] : Fin 0 → Fin S4x64x512.rank)
  reducesTo_S4x64x512_S_d0_1_2 : S4x64x512.ReducesTo [0, 1, 2] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x1024 : S_.BroadcastsInDim S512x1024 (![] : Fin 0 → Fin S512x1024.rank)
  reducesTo_S512x1024_S_d0_1 : S512x1024.ReducesTo [0, 1] S_

variable [Facts]

def fn_part1 {F : FTy → Type} [FloatOps F] (main_arg4 : FVec F S512x1024 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x1024 .f32 := Host.absf main_arg4
  let main_cst_6 : FVec F S_ .f32 := constant S_ .f32 0x7F800000#32
  let main_v20 : FVec F S512x1024 .f32 := broadcastInDim S512x1024 ![] bcast_S_S512x1024 main_cst_6
  let main_v21 : IVec S512x1024 1 := cmpf .olt main_v19 main_v20
  let main_c_7 : IVec S_ 1 := constantI S_ 1 1#1
  let main_v22 : IVec S_ 1 := (fun x v => Host.reduce IntOp.andi x v reducesTo_S512x1024_S_d0_1 h_S_) main_v21 main_c_7
  let main_v23 : IVec S_ 1 := andi main_v18 main_v22
  main_v23

def fn {F : FTy → Type} [FloatOps F] (main_arg0 : FVec F S4x256x512 .f32) (main_arg1 : FVec F S4x64x512 .f32) (main_arg2 : FVec F S1024x512 .f32) (main_arg3 : FVec F S512 .f32) (main_arg4 : FVec F S512x1024 .f32) : IVec S_ 1 :=
  let main_v0 : FVec F S4x256x512 .f32 := Host.absf main_arg0
  let main_cst : FVec F S_ .f32 := constant S_ .f32 0x7F800000#32
  let main_v1 : FVec F S4x256x512 .f32 := broadcastInDim S4x256x512 ![] bcast_S_S4x256x512 main_cst
  let main_v2 : IVec S4x256x512 1 := cmpf .olt main_v0 main_v1
  let main_c : IVec S_ 1 := constantI S_ 1 1#1
  let main_v3 : IVec S_ 1 := (fun x v => Host.reduce IntOp.andi x v reducesTo_S4x256x512_S_d0_1_2 h_S_) main_v2 main_c
  let main_v4 : FVec F S4x64x512 .f32 := Host.absf main_arg1
  let main_cst_0 : FVec F S_ .f32 := constant S_ .f32 0x7F800000#32
  let main_v5 : FVec F S4x64x512 .f32 := broadcastInDim S4x64x512 ![] bcast_S_S4x64x512 main_cst_0
  let main_v6 : IVec S4x64x512 1 := cmpf .olt main_v4 main_v5
  let main_c_1 : IVec S_ 1 := constantI S_ 1 1#1
  let main_v7 : IVec S_ 1 := (fun x v => Host.reduce IntOp.andi x v reducesTo_S4x64x512_S_d0_1_2 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_v13 main_v16
-- ==== Kernel.lean ====
abbrev S4x256x512 : Shape := ⟨3, ![4, 256, 512]⟩
abbrev S4x64x512 : Shape := ⟨3, ![4, 64, 512]⟩
abbrev S1024x512 : Shape := ⟨2, ![1024, 512]⟩
abbrev S512 : Shape := ⟨1, ![512]⟩
abbrev S512x1024 : Shape := ⟨2, ![512, 1024]⟩
abbrev S512x512 : Shape := ⟨2, ![512, 512]⟩
abbrev S1x512 : Shape := ⟨2, ![1, 512]⟩
abbrev S4x256x64x1024 : Shape := ⟨4, ![4, 256, 64, 1024]⟩
abbrev S1x64x512 : Shape := ⟨3, ![1, 64, 512]⟩
abbrev S512x256 : Shape := ⟨2, ![512, 256]⟩
abbrev S1x64x64x256 : Shape := ⟨4, ![1, 64, 64, 256]⟩
abbrev S64x64x512 : Shape := ⟨3, ![64, 64, 512]⟩
abbrev S64x512 : Shape := ⟨2, ![64, 512]⟩
abbrev S1x1x512 : Shape := ⟨3, ![1, 1, 512]⟩
abbrev S64x1x512 : Shape := ⟨3, ![64, 1, 512]⟩
abbrev S4096x512 : Shape := ⟨2, ![4096, 512]⟩
abbrev S4096x256 : Shape := ⟨2, ![4096, 256]⟩
abbrev S64x64x256 : Shape := ⟨3, ![64, 64, 256]⟩

abbrev nBuf : Space → Nat
  | .hbm => 9
  | .vmem => 12
  | .smem => 0
  | _ => 0

abbrev bufTy : (tb : Table) → Fin (tcTables nBuf tb) → BufTy
  | .hbm, ⟨0, _⟩ => ⟨S4x256x512, .f32⟩
  | .hbm, ⟨1, _⟩ => ⟨S4x64x512, .f32⟩
  | .hbm, ⟨2, _⟩ => ⟨S1024x512, .f32⟩
  | .hbm, ⟨3, _⟩ => ⟨S512, .f32⟩
  | .hbm, ⟨4, _⟩ => ⟨S512x1024, .f32⟩
  | .hbm, ⟨5, _⟩ => ⟨S512x512, .f32⟩
  | .hbm, ⟨6, _⟩ => ⟨S512x512, .f32⟩
  | .hbm, ⟨7, _⟩ => ⟨S1x512, .f32⟩
  | .hbm, ⟨8, _⟩ => ⟨S4x256x64x1024, .f32⟩
  | .local _ .vmem, ⟨0, _⟩ => ⟨S1x64x512, .f32⟩
  | .local _ .vmem, ⟨1, _⟩ => ⟨S1x64x512, .f32⟩
  | .local _ .vmem, ⟨2, _⟩ => ⟨S1x64x512, .f32⟩
  | .local _ .vmem, ⟨3, _⟩ => ⟨S1x64x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S512x256, .f32⟩
  | .local _ .vmem, ⟨8, _⟩ => ⟨S512x256, .f32⟩
  | .local _ .vmem, ⟨9, _⟩ => ⟨S1x64x64x256, .f32⟩
  | .local _ .vmem, ⟨10, _⟩ => ⟨S1x64x64x256, .f32⟩
  | .local _ .vmem, ⟨11, _⟩ => ⟨S64x64x512, .bf16⟩
  | _, _ => ⟨S4x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 2 → Memref sig .tc .vmem S1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x64x64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

class Facts₀ : Prop where
  slices_S1024x512_S512x512_0_0 : S1024x512.Slices ![0, 0] S512x512
  slices_S1024x512_S512x512_512_0 : S1024x512.Slices ![512, 0] S512x512
  shapeCasts_S512_S1x512 : S512.ShapeCasts S1x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S1x512_S1x1x512 : S1x512.ShapeCasts S1x1x512
  shapeCasts_S64x512_S64x1x512 : S64x512.ShapeCasts S64x1x512
  shapeCasts_S64x512_S1x64x512 : S64x512.ShapeCasts S1x64x512
  broadcasts_S64x1x512_S64x64x512 : S64x1x512.Broadcasts S64x64x512
  broadcasts_S1x64x512_S64x64x512 : S1x64x512.Broadcasts S64x64x512
  broadcasts_S1x1x512_S64x64x512 : S1x1x512.Broadcasts S64x64x512
  inb_S64x64x512_S64x64x512_0_0_0 : ∀ a, (![0, 0, 0] : Fin 3 → Nat) a + S64x64x512.size a ≤ S64x64x512.size a
  h_S64x64x512 : 0 < S64x64x512.numel
  shapeCasts_S64x64x512_S64x64x512 : S64x64x512.ShapeCasts S64x64x512
  packedbf16_S64x64x512_S64x64x512_0_0_0 : (Rect.unit (s := S64x64x512) ![0, 0, 0] S64x64x512.size inb_S64x64x512_S64x64x512_0_0_0).PackedRows (EltTy.packing .bf16)
  shapeCasts_S64x64x512_S4096x512 : S64x64x512.ShapeCasts S4096x512
  inb_S512x256_S512x256_0_0 : ∀ a, (![0, 0] : Fin 2 → Nat) a + S512x256.size a ≤ S512x256.size a
  h_S512x256 : 0 < S512x256.numel
  shapeCasts_S4096x256_S64x64x256 : S4096x256.ShapeCasts S64x64x256
  inb_S1x64x64x256_S1x64x64x256_0_0_0_0 : ∀ a, (![0, 0, 0, 0] : Fin 4 → Nat) a + S1x64x64x256.size a ≤ S1x64x64x256.size a
  h_S1x64x64x256 : 0 < S1x64x64x256.numel
  shapeCasts_S1x64x64x256_S64x64x256 : S1x64x64x256.ShapeCasts S64x64x256
  shapeCasts_S64x64x256_S1x64x64x256 : S64x64x256.ShapeCasts S1x64x64x256
  dot_S64x512_S512x512_S64x512_1_0_0_1_n_n_wf : DotDims.WF S64x512 S512x512 S64x512 [1] [0] [0] [1] [] []
  dot_S4096x512_S512x256_S4096x256_1_0_0_1_n_n_wf : DotDims.WF S4096x512 S512x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x512.size a ≤ S4x256x512.size a
  hwx0_0 : ∀ i : grid0.Coords, EltTy.bits .f32 = 32 ∨ (Rect.block (s := S4x256x512) S1x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512.size a ≤ S4x64x512.size a
  hwx0_1 : ∀ i : grid0.Coords, EltTy.bits .f32 = 32 ∨ (Rect.block (s := S4x64x512) S1x64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x1024.size a
  hwx0_5 : ∀ i : grid0.Coords, EltTy.bits .f32 = 32 ∨ (Rect.block (s := S512x1024) S512x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x64x64x256.size a ≤ S4x256x64x1024.size a
  hwx0_6 : ∀ i : grid0.Coords, EltTy.bits .f32 = 32 ∨ (Rect.block (s := S4x256x64x1024) S1x64x64x256.size (cc0_transform_6 i) (hinb0_6 i)).WholeWords (EltTy.packing .f32)

variable [Facts₀]

def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf

abbrev win0_0 : Pipeline.Window sig grid0 :=
  Pipeline.Window.ofSpec (Memref.whole main_arg0) S1x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S512x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x64x64x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x256x512 : Shape := ⟨3, ![4, 256, 512]⟩
abbrev S4x64x512 : Shape := ⟨3, ![4, 64, 512]⟩
abbrev S1024x512 : Shape := ⟨2, ![1024, 512]⟩
abbrev S512 : Shape := ⟨1, ![512]⟩
abbrev S512x1024 : Shape := ⟨2, ![512, 1024]⟩
abbrev S512x512 : Shape := ⟨2, ![512, 512]⟩
abbrev S4x256x1x512 : Shape := ⟨4, ![4, 256, 1, 512]⟩
abbrev S4x1x64x512 : Shape := ⟨4, ![4, 1, 64, 512]⟩
abbrev S4x256x64x512 : Shape := ⟨4, ![4, 256, 64, 512]⟩
abbrev S1x1x1x512 : Shape := ⟨4, ![1, 1, 1, 512]⟩
abbrev S4x256x64x1024 : Shape := ⟨4, ![4, 256, 64, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4x256x512, .f32⟩
  | .hbm, ⟨1, _⟩ => ⟨S4x64x512, .f32⟩
  | .hbm, ⟨2, _⟩ => ⟨S1024x512, .f32⟩
  | .hbm, ⟨3, _⟩ => ⟨S512, .f32⟩
  | .hbm, ⟨4, _⟩ => ⟨S512x1024, .f32⟩
  | .hbm, ⟨5, _⟩ => ⟨S512x512, .f32⟩
  | .hbm, ⟨6, _⟩ => ⟨S512x512, .f32⟩
  | .hbm, ⟨7, _⟩ => ⟨S4x256x512, .f32⟩
  | .hbm, ⟨8, _⟩ => ⟨S4x64x512, .f32⟩
  | .hbm, ⟨9, _⟩ => ⟨S4x256x1x512, .f32⟩
  | .hbm, ⟨10, _⟩ => ⟨S4x1x64x512, .f32⟩
  | .hbm, ⟨11, _⟩ => ⟨S4x256x64x512, .f32⟩
  | .hbm, ⟨12, _⟩ => ⟨S4x256x64x512, .f32⟩
  | .hbm, ⟨13, _⟩ => ⟨S4x256x64x512, .f32⟩
  | .hbm, ⟨14, _⟩ => ⟨S1x1x1x512, .f32⟩
  | .hbm, ⟨15, _⟩ => ⟨S4x256x64x512, .f32⟩
  | .hbm, ⟨16, _⟩ => ⟨S4x256x64x512, .f32⟩
  | .hbm, ⟨17, _⟩ => ⟨S4x256x64x512, .f32⟩
  | .hbm, ⟨18, _⟩ => ⟨S4x256x64x1024, .f32⟩
  | _, _ => ⟨S4x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  slices_S1024x512_S512x512_0_0 : S1024x512.Slices ![0, 0] S512x512
  slices_S1024x512_S512x512_512_0 : S1024x512.Slices ![512, 0] S512x512
  bcast_S4x256x512_S4x256x1x512_0_1_3 : S4x256x512.BroadcastsInDim S4x256x1x512 (![0, 1, 3] : Fin 3 → Fin S4x256x1x512.rank)
  bcast_S4x64x512_S4x1x64x512_0_2_3 : S4x64x512.BroadcastsInDim S4x1x64x512 (![0, 2, 3] : Fin 3 → Fin S4x1x64x512.rank)
  bcast_S4x256x1x512_S4x256x64x512_0_1_2_3 : S4x256x1x512.BroadcastsInDim S4x256x64x512 (![0, 1, 2, 3] : Fin 4 → Fin S4x256x64x512.rank)
  bcast_S4x1x64x512_S4x256x64x512_0_1_2_3 : S4x1x64x512.BroadcastsInDim S4x256x64x512 (![0, 1, 2, 3] : Fin 4 → Fin S4x256x64x512.rank)
  bcast_S512_S1x1x1x512_3 : S512.BroadcastsInDim S1x1x1x512 (![3] : Fin 1 → Fin S1x1x1x512.rank)
  bcast_S1x1x1x512_S4x256x64x512_0_1_2_3 : S1x1x1x512.BroadcastsInDim S4x256x64x512 (![0, 1, 2, 3] : Fin 4 → Fin S4x256x64x512.rank)
  dot_S4x256x512_S512x512_S4x256x512_2_0_01_1_n_n_wf : DotDims.WF S4x256x512 S512x512 S4x256x512 [2] [0] [0, 1] [1] [] []
  dot_S4x64x512_S512x512_S4x64x512_2_0_01_1_n_n_wf : DotDims.WF S4x64x512 S512x512 S4x64x512 [2] [0] [0, 1] [1] [] []
  dot_S4x256x64x512_S512x1024_S4x256x64x1024_3_0_012_1_n_n_wf : DotDims.WF S4x256x64x512 S512x1024 S4x256x64x1024 [3] [0] [0, 1, 2] [1] [] []

variable [Facts₀]

def dot_S4x256x512_S512x512_S4x256x512_2_0_01_1_n_n : DotDims S4x256x512 S512x512 S4x256x512 where
  lhsContracting := [2]
  rhsContracting := [0]
  lhsNonContracting := [0, 1]
  rhsNonContracting := [1]
  lhsBatch := []
  rhsBatch := []
  wf := dot_S4x256x512_S512x512_S4x256x512_2_0_01_1_n_n_wf
def dot_S4x64x512_S512x512_S4x64x512_2_0_01_1_n_n : DotDims S4x64x512 S512x512 S4x64x512 where
  lhsContracting := [2]
  rhsContracting := [0]
  lhsNonContracting := [0, 1]
  rhsNonContracting := [1]
  lhsBatch := []
  rhsBatch := []
  wf := dot_S4x64x512_S512x512_S4x64x512_2_0_01_1_n_n_wf
def dot_S4x256x64x512_S512x1024_S4x256x64x1024_3_0_012_1_n_n : DotDims S4x256x64x512 S512x1024 S4x256x64x1024 where
  lhsContracting := [3]
  rhsContracting := [0]
  lhsNonContracting := [0, 1, 2]
  rhsNonContracting := [1]
  lhsBatch := []
  rhsBatch := []
  wf := dot_S4x256x64x512_S512x1024_S4x256x64x1024_3_0_012_1_n_n_wf

class Facts : Prop extends Facts₀ where

variable [Facts]
-- ==== Proof.Spec.lean ====
/-
  The joint network as ONE function of its five argument arrays, over the extended reals.

  For a batch entry b, an encoder frame t, a decoder step u and a vocabulary entry v,

      hidden b t u h = tanh ( (Σ_d enc[b,t,d] · W1[d,h]  +  Σ_d dec[b,u,d] · W1[512 + d,h])  +  b1[h] )
      logits b t u v = Σ_h hidden b t u h · W2[h,v].

  The first 512 rows of W1 multiply the encoder frame, the last 512 rows the decoder step; the two projections are
  added first and the bias after, which is the grouping both programs use, so no law beyond the reading of each
  operation at an index is needed to join them.
-/
import Idealize.ShloMosaic.PureOps.Ideal
import Idealize.ShloMosaic.Lib.ValueIdx

noncomputable section

namespace Cert.JointSpec

open Idealize.ShloMosaic Idealize.ShloMosaic.ValueIdx

/-- Row d of W1's upper half, the rows that meet the encoder frame. -/
abbrev encRow (d : Fin 512) : Fin 1024 := ⟨d.val, by have := d.isLt; omega⟩

/-- Row 512 + d of W1, the rows that meet the decoder step. -/
abbrev decRow (d : Fin 512) : Fin 1024 := ⟨512 + d.val, by have := d.isLt; omega⟩

/-- The encoder frame's projection onto hidden unit h. -/
def encProj (enc : FVec Ideal ⟨3, ![4, 256, 512]⟩ .f32) (W1 : FVec Ideal ⟨2, ![1024, 512]⟩ .f32)
    (b : Fin 4) (t : Fin 256) (h : Fin 512) : EReal :=
  ∑ d : Fin 512, enc (ix3 b t d) * W1 (ix2 (encRow d) h)

/-- The decoder step's projection onto hidden unit h. -/
def decProj (dec : FVec Ideal ⟨3, ![4, 64, 512]⟩ .f32) (W1 : FVec Ideal ⟨2, ![1024, 512]⟩ .f32)
    (b : Fin 4) (u : Fin 64) (h : Fin 512) : EReal :=
  ∑ d : Fin 512, dec (ix3 b u d) * W1 (ix2 (decRow d) h)

/-- The hidden activation of the pair (t, u) of batch entry b at unit h. -/
def hidden (enc : FVec Ideal ⟨3, ![4, 256, 512]⟩ .f32) (dec : FVec Ideal ⟨3, ![4, 64, 512]⟩ .f32)
    (W1 : FVec Ideal ⟨2, ![1024, 512]⟩ .f32) (b1 : FVec Ideal ⟨1, ![512]⟩ .f32)
    (b : Fin 4) (t : Fin 256) (u : Fin 64) (h : Fin 512) : EReal :=
  Ideal.tanh ((encProj enc W1 b t h + decProj dec W1 b u h) + b1 (ix1 h))

/-- The logits: the hidden activations against W2. -/
def logits (enc : FVec Ideal ⟨3, ![4, 256, 512]⟩ .f32) (dec : FVec Ideal ⟨3, ![4, 64, 512]⟩ .f32)
    (W1 : FVec Ideal ⟨2, ![1024, 512]⟩ .f32) (b1 : FVec Ideal ⟨1, ![512]⟩ .f32) (W2 : FVec Ideal ⟨2, ![512, 1024]⟩ .f32) :
    FVec Ideal ⟨4, ![4, 256, 64, 1024]⟩ .f32 :=
  fun i => ∑ h : Fin 512, hidden enc dec W1 b1 (i 0) (i 1) (i 2) h * W2 (ix2 h (i 3))

end Cert.JointSpec

end
-- ==== Proof.RefIsSpec.lean ====
/-
  The reference computes the specification.

  Read one operation at a time, the reference's last stage at an index (b, t, u, v) is the sum over the hidden unit h
  of tanh(...) at (b, t, u, h) times W2 at (h, v); the tanh's argument is the two broadcast projections added, then the
  broadcast bias. Each projection is a sum over the feature d of an argument entry times an entry of one half of W1,
  the half being a slice of rows 0..511 or 512..1023. The only work is to see that the composed index maps of the
  broadcasts and slices are the coordinates the specification names.
-/
import proofs.«142067_j8641474199710_1_alg».proof.Proof.Gen.ReferenceIdeal.Read
import proofs.«142067_j8641474199710_1_alg».proof.Proof.Spec

noncomputable section

namespace Cert.ReferenceIdeal.RefValue

open Cert.ReferenceIdeal Cert.ReferenceIdeal.Read Idealize.ShloMosaic Idealize.ShloMosaic.ValueIdx Cert.JointSpec

/-- The reference's result, as a function of the five arguments, is the specification's logits. -/
theorem result_eq_logits (x0 : FVec Ideal S4x256x512 .f32) (x1 : FVec Ideal S4x64x512 .f32) (x2 : FVec Ideal S1024x512 .f32)
    (x3 : FVec Ideal S512 .f32) (x4 : FVec Ideal S512x1024 .f32) :
    val_main_v13 (F := Ideal) x0 x1 x2 x3 x4 = logits x0 x1 x2 x3 x4 := by
  funext i
  rw [val_main_v13_apply]
  unfold logits
  refine Finset.sum_congr rfl fun h _ => ?_
  -- the composed index maps, named by coordinates
  have eW2 : ridx_main_v13 i h = ix2 h (i 3) :=
    funext fun a => Fin.ext (by match a with | ⟨0, _⟩ => rfl | ⟨1, _⟩ => rfl)
  have eb1 : idx_main_v9 (idx_main_v10 (lidx_main_v13 i h)) = ix1 h :=
    funext fun a => Fin.ext (by match a with | ⟨0, _⟩ => rfl)
  have eenc : ∀ d : Fin 512, lidx_main_v2 (idx_main_v4 (idx_main_v6 (lidx_main_v13 i h))) d = ix3 (i 0) (i 1) d :=
    fun d => funext fun a => Fin.ext (by match a with | ⟨0, _⟩ => rfl | ⟨1, _⟩ => rfl | ⟨2, _⟩ => rfl)
  have eW1e : ∀ d : Fin 512, idx_main_v0 (ridx_main_v2 (idx_main_v4 (idx_main_v6 (lidx_main_v13 i h))) d) = ix2 (encRow d) h :=
    fun d => funext fun a => Fin.ext (by match a with | ⟨0, _⟩ => rfl | ⟨1, _⟩ => rfl)
  have edec : ∀ d : Fin 512, lidx_main_v3 (idx_main_v5 (idx_main_v7 (lidx_main_v13 i h))) d = ix3 (i 0) (i 2) d :=
    fun d => funext fun a => Fin.ext (by match a with | ⟨0, _⟩ => rfl | ⟨1, _⟩ => rfl | ⟨2, _⟩ => rfl)
  have eW1d : ∀ d : Fin 512, idx_main_v1 (ridx_main_v3 (idx_main_v5 (idx_main_v7 (lidx_main_v13 i h))) d) = ix2 (decRow d) h :=
    fun d => funext fun a => Fin.ext (by match a with | ⟨0, _⟩ => rfl | ⟨1, _⟩ => rfl)
  rw [val_main_v12_apply, val_main_v11_apply, val_main_v8_apply, val_main_v6_apply, val_main_v4_apply, val_main_v2_apply,
    val_main_v7_apply, val_main_v5_apply, val_main_v3_apply, val_main_v10_apply, val_main_v9_apply, eW2, eb1]
  simp only [val_main_v0_apply, val_main_v1_apply, eenc, eW1e, edec, eW1d]
  rfl

end Cert.ReferenceIdeal.RefValue

end
-- ==== Proof.Pieces.lean ====
/-
  What one run of the body leaves behind, as the stored values themselves.

  At the first vocabulary tile of a (batch entry, frame tile) pair the body stores the hidden tile whole into the
  carried buffer, reads it back, and stores the product with the vocabulary tile of W2 whole into the output block;
  at the other vocabulary tiles it only reads the carried buffer and stores the product. Every load reads a whole
  buffer and every store covers a whole buffer, so what each buffer holds afterwards is the one stored value, as a
  function of the blocks loaded (and, away from the first tile, of what the carried buffer held before).
-/
import proofs.«142067_j8641474199710_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- At a first vocabulary tile the carried buffer ends holding the hidden tile of the blocks loaded. -/
theorem carried_first (c : Dev nD) (i : grid0.Coords) (arg3 : Memref sig .tc .vmem S1x64x512 .f32) (harg3 : arg3.IsWhole) (arg4 : Memref sig .tc .vmem S1x64x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S512x256 .f32) (harg8 : arg8.IsWhole) (arg9 : Memref sig .tc .vmem S1x64x64x256 .f32) (harg9 : arg9.IsWhole) (arg10 : Memref sig .tc .vmem S64x64x512 .bf16) (harg10 : arg10.IsWhole) (hc0 : cond0_0 i) (x0 : Vec F S1x64x512 .f32) (x1 : Vec F S1x64x512 .f32) (x2 : Vec F S512x512 .f32) (x3 : Vec F S512x512 .f32) (x4 : Vec F S1x512 .f32) (x5 : Vec F S512x256 .f32) :
    sout0_A_0 c i arg3 harg3 arg4 harg4 arg5 harg5 arg6 harg6 arg7 harg7 arg8 harg8 arg9 harg9 arg10 harg10 hc0 x0 x1 x2 x3 x4 x5 = k0_pay1 x0 x1 x2 x3 x4 := by
  unfold sout0_A_0
  rw [View.read_writes_eq_canon _ _ _ (scover0_A_0 c i arg3 harg3 arg4 harg4 arg5 harg5 arg6 harg6 arg7 harg7 arg8 harg8 arg9 harg9 arg10 harg10 hc0 x0 x1 x2 x3 x4 x5)]
  unfold kernelRun0_A
  dsimp only
  sl_unfold_words
  rw [View.canon_unit_zero hz3]
  simp only [View.readAt_eq_ld, harg3.read_unread, harg4.read_unread, harg5.read_unread, harg6.read_unread, harg7.read_unread,
    View.ld_unit_zero (S := S1x64x512) hz3, View.ld_unit_zero (S := S512x512) hz2, View.ld_unit_zero (S := S1x512) hz2]

/-- At a first vocabulary tile the output block ends holding the product of that hidden tile with the W2 tile. -/
theorem out_first (c : Dev nD) (i : grid0.Coords) (arg3 : Memref sig .tc .vmem S1x64x512 .f32) (harg3 : arg3.IsWhole) (arg4 : Memref sig .tc .vmem S1x64x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S512x256 .f32) (harg8 : arg8.IsWhole) (arg9 : Memref sig .tc .vmem S1x64x64x256 .f32) (harg9 : arg9.IsWhole) (arg10 : Memref sig .tc .vmem S64x64x512 .bf16) (harg10 : arg10.IsWhole) (hc0 : cond0_0 i) (x0 : Vec F S1x64x512 .f32) (x1 : Vec F S1x64x512 .f32) (x2 : Vec F S512x512 .f32) (x3 : Vec F S512x512 .f32) (x4 : Vec F S1x512 .f32) (x5 : Vec F S512x256 .f32) :
    out0_A_6 c i arg3 harg3 arg4 harg4 arg5 harg5 arg6 harg6 arg7 harg7 arg8 harg8 arg9 harg9 arg10 harg10 hc0 x0 x1 x2 x3 x4 x5 = k0_pay2 (k0_pay1 x0 x1 x2 x3 x4) x5 := by
  unfold out0_A_6
  rw [View.read_writes_eq_canon _ _ _ (cover0_A_6 c i arg3 harg3 arg4 harg4 arg5 harg5 arg6 harg6 arg7 harg7 arg8 harg8 arg9 harg9 arg10 harg10 hc0 x0 x1 x2 x3 x4 x5)]
  unfold kernelRun0_A
  dsimp only
  sl_unfold_words
  rw [View.canon_unit_zero hz4, View.readCov_unit_zero (S := S64x64x512) _ hz3]
  simp only [View.readAt_eq_ld, harg3.read_unread, harg4.read_unread, harg5.read_unread, harg6.read_unread, harg7.read_unread,
    harg8.read_unread, View.ld_unit_zero (S := S1x64x512) hz3, View.ld_unit_zero (S := S512x512) hz2,
    View.ld_unit_zero (S := S1x512) hz2, View.ld_unit_zero (S := S512x256) hz2]

/-- At a later vocabulary tile the output block ends holding the product of what the carried buffer held with the W2 tile. -/
theorem out_later (c : Dev nD) (i : grid0.Coords) (arg3 : Memref sig .tc .vmem S1x64x512 .f32) (harg3 : arg3.IsWhole) (arg4 : Memref sig .tc .vmem S1x64x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S512x256 .f32) (harg8 : arg8.IsWhole) (arg9 : Memref sig .tc .vmem S1x64x64x256 .f32) (harg9 : arg9.IsWhole) (arg10 : Memref sig .tc .vmem S64x64x512 .bf16) (harg10 : arg10.IsWhole) (hc0 : ¬cond0_0 i) (x0 : Vec F S1x64x512 .f32) (x1 : Vec F S1x64x512 .f32) (x2 : Vec F S512x512 .f32) (x3 : Vec F S512x512 .f32) (x4 : Vec F S1x512 .f32) (x5 : Vec F S512x256 .f32) (xs0 : Vec F S64x64x512 .bf16) :
    out0_B_6 c i arg3 harg3 arg4 harg4 arg5 harg5 arg6 harg6 arg7 harg7 arg8 harg8 arg9 harg9 arg10 harg10 hc0 x0 x1 x2 x3 x4 x5 xs0 = k0_pay2 xs0 x5 := by
  unfold out0_B_6
  rw [View.read_writes_eq_canon _ _ _ (cover0_B_6 c i arg3 harg3 arg4 harg4 arg5 harg5 arg6 harg6 arg7 harg7 arg8 harg8 arg9 harg9 arg10 harg10 hc0 x0 x1 x2 x3 x4 x5 xs0)]
  unfold kernelRun0_B
  dsimp only
  rw [View.canon_unit_zero hz4]
  simp only [View.readAt_eq_ld, harg8.read_unread, harg10.read_unread, View.ld_unit_zero (S := S64x64x512) hz3,
    View.ld_unit_zero (S := S512x256) hz2]

end Cert.KernelIdeal.Pieces

end
-- ==== Proof.LibDense.lean ====
/-
  The operations of a dense layer read at one entry, at the ideal values, each stated at an index written by its
  coordinates and generic in the extents:
  a plain matrix product (the kernel's product into the zero splat, whatever the operands' storage formats, and the
  host's dot product) as the sum over the contracted coordinate; a block of rows sliced out of a matrix; two or
  three matrices joined side by side along the columns; a vector laid out as a one-row matrix and that row repeated
  down the rows; a scalar repeated over a whole array; and a finite sum over `Fin r` cut into consecutive blocks.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Dense

open Idealize.ShloMosaic Idealize.ShloMosaic.ValueIdx

/-! ## Plain matrix products -/

section Products
variable {m k n : ℕ} (w : DotDims.WF ⟨2, ![m, k]⟩ ⟨2, ![k, n]⟩ ⟨2, ![m, n]⟩ [1] [0] [0] [1] [] [])

/-- The left operand's index of a plain product at output entry (a, b) and contracted coordinate c is (a, c). -/
theorem plain_lhsIdx (a : Fin m) (b : Fin n) (c : Fin k) :
    (⟨[1], [0], [0], [1], [], [], w⟩ : DotDims ⟨2, ![m, k]⟩ ⟨2, ![k, n]⟩ ⟨2, ![m, n]⟩).lhsIdx (ix2 a b)
      ((contrEquiv1 (⟨[1], [0], [0], [1], [], [], w⟩ : DotDims ⟨2, ![m, k]⟩ ⟨2, ![k, n]⟩ ⟨2, ![m, n]⟩) k rfl rfl).symm c) = ix2 a c := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.lhsIdx]; rfl
  | ⟨1, _⟩ => simp [DotDims.lhsIdx]; exact c2

/-- The right operand's index of a plain product at output entry (a, b) and contracted coordinate c is (c, b). -/
theorem plain_rhsIdx (a : Fin m) (b : Fin n) (c : Fin k) :
    (⟨[1], [0], [0], [1], [], [], w⟩ : DotDims ⟨2, ![m, k]⟩ ⟨2, ![k, n]⟩ ⟨2, ![m, n]⟩).rhsIdx (ix2 a b)
      ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.rhsIdx]; exact c2
  | ⟨1, _⟩ => simp [DotDims.rhsIdx]; rfl

/-- A product of an m×k by a k×n matrix accumulated into the zero splat, whatever formats the operands are stored
    in, read at entry (a, b): the sum over the contracted coordinate. -/
theorem matmul_plain_apply {φ₁ φ₂ : FTy} (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) none A B
        (constant ⟨2, ![m, n]⟩ .f32 0x00000000#32) (ix2 a b)
      = ∑ c : Fin k, A (ix2 a c) * B (ix2 c b) := by
  show FloatOps.matmul _ none A B _ (ix2 a b) = _
  rw [Ideal.matmul_constant_zero_apply,
    ← Equiv.sum_comp (contrEquiv1 (⟨[1], [0], [0], [1], [], [], w⟩ : DotDims _ _ _) k rfl rfl).symm]
  exact Finset.sum_congr rfl fun c _ => by rw [plain_lhsIdx w a b c, plain_rhsIdx w a b c]

/-- The host's dot product of an m×k by a k×n matrix read at entry (a, b): the same sum. -/
theorem hostDot_plain_apply {φ₁ φ₂ : FTy} (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) none A B (ix2 a b)
      = ∑ c : Fin k, A (ix2 a c) * B (ix2 c b) := by
  show FloatOps.dotGeneral _ none .single A B (ix2 a b) = _
  rw [Ideal.dotGeneral_apply,
    ← Equiv.sum_comp (contrEquiv1 (⟨[1], [0], [0], [1], [], [], w⟩ : DotDims _ _ _) k rfl rfl).symm]
  exact Finset.sum_congr rfl fun c _ => by rw [plain_lhsIdx w a b c, plain_rhsIdx w a b c]

end Products

/-! ## Layout -/

section Layout
variable {α : Type}

/-- Rows o … o + c - 1 of an a×b matrix, read at (i, j): the matrix at (o + i, j). -/
theorem sliceRows_apply {a b c : ℕ} (o : ℕ) (x : (⟨2, ![a, b]⟩ : Shape).Idx → α)
    (h : (⟨2, ![a, b]⟩ : Shape).Slices ![o, 0] ⟨2, ![c, b]⟩) (i : Fin c) (j : Fin b) (ho : o + i.val < a) :
    extractStridedSlice ⟨2, ![c, b]⟩ ![o, 0] x h (ix2 i j) = x (ix2 ⟨o + i.val, ho⟩ j) :=
  extractStridedSlice_apply _ x h _ _ fun ax => match ax with
    | ⟨0, _⟩ => rfl
    | ⟨1, _⟩ => (Nat.zero_add _).symm

/-- Two matrices side by side: a column of the first. -/
theorem concatCols2_left {n p q r : ℕ} (x₁ : (⟨2, ![n, p]⟩ : Shape).Idx → α) (x₂ : (⟨2, ![n, q]⟩ : Shape).Idx → α)
    (h : Shape.Concatenates [(⟨2, ![n, p]⟩ : Shape), ⟨2, ![n, q]⟩] ⟨2, ![n, r]⟩ 1) (e : Fin n) (c : Fin p) (hc : c.val < r) :
    concatenate ⟨2, ![n, r]⟩ 1 [⟨⟨2, ![n, p]⟩, x₁⟩, ⟨⟨2, ![n, q]⟩, x₂⟩] h (ix2 e ⟨c.val, hc⟩) = x₁ (ix2 e c) :=
  concatenate_pair_apply_left 1 x₁ x₂ h _ rfl _ fun b => match b with
    | ⟨0, _⟩ => rfl
    | ⟨1, _⟩ => rfl

/-- Two matrices side by side: a column of the second sits p columns to the right. -/
theorem concatCols2_right {n p q r : ℕ} (x₁ : (⟨2, ![n, p]⟩ : Shape).Idx → α) (x₂ : (⟨2, ![n, q]⟩ : Shape).Idx → α)
    (h : Shape.Concatenates [(⟨2, ![n, p]⟩ : Shape), ⟨2, ![n, q]⟩] ⟨2, ![n, r]⟩ 1) (e : Fin n) (c : Fin q) (hc : p + c.val < r) :
    concatenate ⟨2, ![n, r]⟩ 1 [⟨⟨2, ![n, p]⟩, x₁⟩, ⟨⟨2, ![n, q]⟩, x₂⟩] h (ix2 e ⟨p + c.val, hc⟩) = x₂ (ix2 e c) :=
  concatenate_pair_apply_right 1 x₁ x₂ h _ rfl rfl _
    (fun b hb => match b with
      | ⟨0, _⟩ => rfl
      | ⟨1, _⟩ => absurd rfl hb)
    (Nat.add_comm _ _)

/-- A vector laid out as a one-row matrix. -/
theorem bcastRow_apply {b : ℕ} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) :=
  broadcastInDim_apply _ h v _ _ fun ax => match ax with
    | ⟨0, _⟩ => by
      show j.val = if b = 1 then 0 else j.val
      split
      · have := j.isLt; omega
      · rfl

/-- A one-row matrix repeated down the rows. -/
theorem bcastRows_apply {a b : ℕ} (v : (⟨2, ![1, b]⟩ : Shape).Idx → α)
    (h : (⟨2, ![1, b]⟩ : Shape).BroadcastsInDim ⟨2, ![a, b]⟩ ![0, 1]) (p : Fin a) (j : Fin b) :
    broadcastInDim ⟨2, ![a, b]⟩ ![0, 1] h v (ix2 p j) = v (ix2 (0 : Fin 1) j) :=
  broadcastInDim_apply _ h v _ _ fun ax => match ax with
    | ⟨0, _⟩ => rfl
    | ⟨1, _⟩ => by
      show j.val = if b = 1 then 0 else j.val
      split
      · have := j.isLt; omega
      · rfl

/-- A scalar repeated over a whole array. -/
theorem bcastScalar_apply {s : Shape} (v : (⟨0, ![]⟩ : Shape).Idx → α)
    (h : (⟨0, ![]⟩ : Shape).BroadcastsInDim s ![]) (i : s.Idx) :
    broadcastInDim s ![] h v i = v ix0 :=
  broadcastInDim_apply _ h v i ix0 fun ax => ax.elim0

end Layout

/-! ## A finite sum cut into consecutive blocks -/

section Sums
variable {M : Type} [AddCommMonoid M]

/-- A sum over r = p + q indices is the sum over the first p plus the sum over the last q. -/
theorem sum_split2 {p q r : ℕ} (hr : p + q = r) (f : Fin r → M) :
    ∑ c : Fin r, f c
      = ∑ c : Fin p, f ⟨c.val, by have := c.isLt; omega⟩ + ∑ c : Fin q, f ⟨p + c.val, by have := c.isLt; omega⟩ := by
  subst hr
  rw [Fin.sum_univ_add]
  rfl

/-- A sum over r = p + q + s indices in three consecutive blocks. -/
theorem sum_split3 {p q s r : ℕ} (hr : p + q + s = r) (f : Fin r → M) :
    ∑ c : Fin r, f c
      = (∑ c : Fin p, f ⟨c.val, by have := c.isLt; omega⟩ + ∑ c : Fin q, f ⟨p + c.val, by have := c.isLt; omega⟩)
        + ∑ c : Fin s, f ⟨p + q + c.val, by have := c.isLt; omega⟩ := by
  subst hr
  rw [Fin.sum_univ_add, Fin.sum_univ_add]
  rfl

end Sums

end Cert.Dense

end
-- ==== Proof.LibCasts3.lean ====
/-
  Rank-3 re-layouts read at an index written by its coordinates, generic in the extents and the element type:
  the two leading axes of an [a, b, c] array merged into one of extent n = a·b and split back (a row-major reshape
  keeps the position (r·b + u)·c + q), and the three ways a rank-3 array with unit axes is repeated over [a, b, c]:
  along the middle axis, along the leading axis, and along both.
-/
import Idealize.ShloMosaic.Lib.ValueIdx
import Idealize.ShloMosaic.Lib.ValueLayout
import Idealize.ShloMosaic.Lib.Pipeline.Value

noncomputable section

namespace Cert.Casts3

open Idealize.ShloMosaic Idealize.ShloMosaic.ValueIdx

variable {α : Type}

/-- An [a, b, c] array cast to [n, c] with n = a·b reads, at row k = r·b + u and column q, the operand at (r, u, q). -/
theorem merge_apply {a b c n : ℕ} (x : (⟨3, ![a, b, c]⟩ : Shape).Idx → α)
    (h : (⟨3, ![a, b, c]⟩ : Shape).ShapeCasts ⟨2, ![n, c]⟩) (r : Fin a) (u : Fin b) (k : Fin n)
    (hk : k.val = r.val * b + u.val) (q : Fin c) :
    shapeCast ⟨2, ![n, c]⟩ x h (ix2 k q) = x (ix3 r u q) :=
  shapeCast_apply x h _ _ (by
    rw [Shape.rowMajor_val_three, Shape.rowMajor_val_two]
    show (r.val * b + u.val) * c + q.val = k.val * c + q.val
    rw [hk])

/-- An [n, c] array with n = a·b cast to [a, b, c] reads, at (r, u, q), the operand at row k = r·b + u and column q. -/
theorem split_apply {a b c n : ℕ} (x : (⟨2, ![n, c]⟩ : Shape).Idx → α)
    (h : (⟨2, ![n, c]⟩ : Shape).ShapeCasts ⟨3, ![a, b, c]⟩) (r : Fin a) (u : Fin b) (k : Fin n)
    (hk : k.val = r.val * b + u.val) (q : Fin c) :
    shapeCast ⟨3, ![a, b, c]⟩ x h (ix3 r u q) = x (ix2 k q) :=
  shapeCast_apply x h _ _ (by
    rw [Shape.rowMajor_val_two, Shape.rowMajor_val_three]
    show k.val * c + q.val = (r.val * b + u.val) * c + q.val
    rw [hk])

/-- An [a, 1, c] array repeated along its middle axis reads, at (r, u, q), the operand at (r, 0, q). -/
theorem spreadMid_apply {a b c : ℕ} (v : (⟨3, ![a, 1, c]⟩ : Shape).Idx → α)
    (h : (⟨3, ![a, 1, c]⟩ : Shape).Broadcasts ⟨3, ![a, b, c]⟩) (r : Fin a) (u : Fin b) (q : Fin c) :
    broadcastTo ⟨3, ![a, b, c]⟩ v h (ix3 r u q) = v (ix3 r (0 : Fin 1) q) := by
  refine broadcastTo_apply v h (ix3 r u q) (ix3 r (0 : Fin 1) q) fun ax => ?_
  match ax with
  | ⟨0, _⟩ =>
    show r.val = if a = 1 then 0 else r.val
    split
    · have := r.isLt; omega
    · rfl
  | ⟨1, _⟩ => rfl
  | ⟨2, _⟩ =>
    show q.val = if c = 1 then 0 else q.val
    split
    · have := q.isLt; omega
    · rfl

/-- A [1, b, c] array repeated along its leading axis reads, at (r, u, q), the operand at (0, u, q). -/
theorem spreadLead_apply {a b c : ℕ} (v : (⟨3, ![1, b, c]⟩ : Shape).Idx → α)
    (h : (⟨3, ![1, b, c]⟩ : Shape).Broadcasts ⟨3, ![a, b, c]⟩) (r : Fin a) (u : Fin b) (q : Fin c) :
    broadcastTo ⟨3, ![a, b, c]⟩ v h (ix3 r u q) = v (ix3 (0 : Fin 1) u q) := by
  refine broadcastTo_apply v h (ix3 r u q) (ix3 (0 : Fin 1) u q) fun ax => ?_
  match ax with
  | ⟨0, _⟩ => rfl
  | ⟨1, _⟩ =>
    show u.val = if b = 1 then 0 else u.val
    split
    · have := u.isLt; omega
    · rfl
  | ⟨2, _⟩ =>
    show q.val = if c = 1 then 0 else q.val
    split
    · have := q.isLt; omega
    · rfl

/-- A [1, 1, c] array repeated along both leading axes reads, at (r, u, q), the operand at (0, 0, q). -/
theorem spreadBoth_apply {a b c : ℕ} (v : (⟨3, ![1, 1, c]⟩ : Shape).Idx → α)
    (h : (⟨3, ![1, 1, c]⟩ : Shape).Broadcasts ⟨3, ![a, b, c]⟩) (r : Fin a) (u : Fin b) (q : Fin c) :
    broadcastTo ⟨3, ![a, b, c]⟩ v h (ix3 r u q) = v (ix3 (0 : Fin 1) (0 : Fin 1) q) := by
  refine broadcastTo_apply v h (ix3 r u q) (ix3 (0 : Fin 1) (0 : Fin 1) q) fun ax => ?_
  match ax with
  | ⟨0, _⟩ => rfl
  | ⟨1, _⟩ => rfl
  | ⟨2, _⟩ =>
    show q.val = if c = 1 then 0 else q.val
    split
    · have := q.isLt; omega
    · rfl

end Cert.Casts3

end
-- ==== Proof.Payloads.lean ====
/-
  The body's two stored values, read at an index, at the ideal values.

  What the body stores into the carried buffer at the first vocabulary tile of a (batch entry, frame tile) pair is, at
  (r, u, h), tanh of the frame block's row r against the upper weight block's column h, plus the decoder block's row u
  against the lower weight block's column h, plus the bias row at h: a rounding to a narrower float format is the
  identity on the extended reals, a product into the zero splat is the plain sum over the contracted coordinate, and
  the casts and repeats only rename coordinates.

  What the body stores into the output block is, at (0, r, u, q), the carried buffer's row (r, u) against column q of
  the vocabulary tile of W2: the carried buffer's two leading axes are merged to a 4096-row matrix for the product
  and the result's rows are split back, and row r·64 + u of either is the pair (r, u).
-/
import proofs.«142067_j8641474199710_1_alg».proof.Proof.Gen.KernelIdeal.Skeleton
import proofs.«142067_j8641474199710_1_alg».proof.Proof.LibDense
import proofs.«142067_j8641474199710_1_alg».proof.Proof.LibCasts3
import Idealize.ShloMosaic.Lib.ValueLayout
import Idealize.ShloMosaic.Lib.Pipeline.Value

noncomputable section

namespace Cert.KernelIdeal.Payload

open Cert.KernelIdeal Cert.KernelIdeal.Gen Idealize.ShloMosaic Idealize.ShloMosaic.ValueIdx

/-- Row r·64 + u of a 4096-row matrix: the pair (r, u) of a [64, 64, ·] array in row-major order. -/
abbrev pairRow (r u : Fin 64) : Fin 4096 := ⟨r.val * 64 + u.val, by have := r.isLt; have := u.isLt; omega⟩

/-- The hidden tile the body stores, at (r, u, h). -/
theorem hiddenTile_apply (v12 v15 : FVec Ideal S1x64x512 .f32) (v18 v21 : FVec Ideal S512x512 .f32) (v26 : FVec Ideal S1x512 .f32)
    (r u : Fin 64) (h : Fin 512) :
    k0_pay1 (F := Ideal) v12 v15 v18 v21 v26 (ix3 r u h)
      = Ideal.tanh (((∑ d : Fin 512, v12 (ix3 (0 : Fin 1) r d) * v18 (ix2 d h))
          + (∑ d : Fin 512, v15 (ix3 (0 : Fin 1) u d) * v21 (ix2 d h))) + v26 (ix2 (0 : Fin 1) h)) := by
  unfold k0_pay1
  rw [shapeCast_self]
  show Ideal.tanh ((broadcastTo S64x64x512 _ _ (ix3 r u h) + broadcastTo S64x64x512 _ _ (ix3 r u h))
    + broadcastTo S64x64x512 _ _ (ix3 r u h)) = _
  rw [Cert.Casts3.spreadMid_apply, Cert.Casts3.spreadLead_apply, Cert.Casts3.spreadBoth_apply,
    Cert.Casts3.split_apply _ _ r (0 : Fin 1) r (by simp) h, shapeCast_ab_1ab_apply, shapeCast_ab_1ab_apply, shapeCast_self]
  refine congrArg Ideal.tanh (congrArg₂ (· + ·) (congrArg₂ (· + ·) ?_ ?_) (congrFun (shapeCast_self v26 _) _))
  · refine (Cert.Dense.matmul_plain_apply Facts₀.dot_S64x512_S512x512_S64x512_1_0_0_1_n_n_wf _ _ r h).trans ?_
    refine Finset.sum_congr rfl fun d _ => ?_
    simp only [truncf_apply, shapeCast_1ab_ab_apply, shapeCast_self]
  · refine (Cert.Dense.matmul_plain_apply Facts₀.dot_S64x512_S512x512_S64x512_1_0_0_1_n_n_wf _ _ u h).trans ?_
    refine Finset.sum_congr rfl fun d _ => ?_
    simp only [truncf_apply, shapeCast_1ab_ab_apply, shapeCast_self]

/-- The output tile the body stores, at (0, r, u, q). -/
theorem outTile_apply (v3 : FVec Ideal S64x64x512 .bf16) (v5 : FVec Ideal S512x256 .f32) (z : Fin 1) (r u : Fin 64) (q : Fin 256) :
    k0_pay2 (F := Ideal) v3 v5 (ix4 z r u q) = ∑ h : Fin 512, v3 (ix3 r u h) * v5 (ix2 h q) := by
  unfold k0_pay2
  rw [shapeCast_abc_1abc_apply, Cert.Casts3.split_apply _ _ r u (pairRow r u) rfl q]
  refine (Cert.Dense.matmul_plain_apply Facts₀.dot_S4096x512_S512x256_S4096x256_1_0_0_1_n_n_wf _ _ (pairRow r u) q).trans ?_
  refine Finset.sum_congr rfl fun h _ => ?_
  rw [truncf_apply, Cert.Casts3.merge_apply _ _ r u (pairRow r u) rfl h]

end Cert.KernelIdeal.Payload

end
-- ==== Proof.Blocks.lean ====
/-
  The blocks the body loads, read at an index of the argument arrays.

  The grid has 4 · 4 · 4 points in row-major order: point n belongs to batch entry n / 16, frame tile (n / 4) mod 4 and
  vocabulary tile n mod 4. At point n the frame window holds rows 64 · ((n / 4) mod 4) … + 63 of batch entry n / 16 of
  the encoder array, the decoder window all 64 steps of that batch entry, the two weight windows the upper and lower
  512 rows of W1 (two slices made before the launch), the bias window b1 laid out as one row (a reshape made before
  the launch), and the W2 window columns 256 · (n mod 4) … + 255.
-/
import proofs.«142067_j8641474199710_1_alg».proof.Proof.Gen.KernelIdeal.Frame
import proofs.«142067_j8641474199710_1_alg».proof.Proof.LibDense
import proofs.«142067_j8641474199710_1_alg».proof.Proof.Spec
import Idealize.ShloMosaic.Lib.ValueLayout
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Cert.JointSpec

variable {F : FTy → Type} [FloatOps F]
variable (m : (ℓ : Loc nD τ sig) → Buf (Elt F) ℓ)

/-- The batch entry of grid point n. -/
abbrev bat (n : ℕ) : Fin 4 := ⟨n / 16 % 4, Nat.mod_lt _ (by decide)⟩

/-- Row r of the frame tile of grid point n, as a frame of the whole sequence. -/
abbrev frm (n : ℕ) (r : Fin 64) : Fin 256 :=
  ⟨64 * (n / 4 % 4) + r.val, by have := r.isLt; have := Nat.mod_lt (n / 4) (show 0 < 4 by decide); omega⟩

/-- Column q of the vocabulary tile of grid point n, as a vocabulary entry. -/
abbrev voc (n : ℕ) (q : Fin 256) : Fin 1024 :=
  ⟨256 * (n % 4) + q.val, by have := q.isLt; have := Nat.mod_lt n (show 0 < 4 by decide); omega⟩

/-- The windows' block indices at every grid point, decided over the 64 points. -/
theorem index_facts : ∀ t : Fin cfg0.N,
    (win0_0.index t (0 : Fin 3) = t.val / 16 % 4 ∧ win0_0.index t (1 : Fin 3) = t.val / 4 % 4 ∧ win0_0.index t (2 : Fin 3) = 0)
    ∧ (win0_1.index t (0 : Fin 3) = t.val / 16 % 4 ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = t.val % 4)
    ∧ (win0_6.index t (0 : Fin 4) = t.val / 16 % 4 ∧ win0_6.index t (1 : Fin 4) = t.val / 4 % 4
        ∧ win0_6.index t (2 : Fin 4) = 0 ∧ win0_6.index t (3 : Fin 4) = t.val % 4) :=
  (by decide +kernel : ∀ t : Fin grid0.N, _)

/-! ## The arrays the launch finds, written by the host before it -/

/-- The upper weight array is rows 0 … 511 of W1. -/
theorem upper_eq (c : Dev nD) :
    (V m c main_v0 : S512x512.Idx → Elt F .f32)
      = extractStridedSlice S512x512 ![0, 0] (m ((c : Thread nD τ).loc main_arg2)) Facts₀.slices_S1024x512_S512x512_0_0 := by
  dsimp only [V, hostOps0]; after_results

/-- The lower weight array is rows 512 … 1023 of W1. -/
theorem lower_eq (c : Dev nD) :
    (V m c main_v1 : S512x512.Idx → Elt F .f32)
      = extractStridedSlice S512x512 ![512, 0] (m ((c : Thread nD τ).loc main_arg2)) Facts₀.slices_S1024x512_S512x512_512_0 := by
  dsimp only [V, hostOps0]; after_results

/-- The bias row is b1 laid out as a one-row matrix. -/
theorem biasRow_eq (c : Dev nD) :
    (V m c main_v2 : S1x512.Idx → Elt F .f32)
      = shapeCast S1x512 (m ((c : Thread nD τ).loc main_arg3)) Facts₀.shapeCasts_S512_S1x512 := by
  dsimp only [V, hostOps0]; after_results; rfl

/-! ## The six input blocks at a grid point -/

/-- The frame block: row r, feature d. -/
theorem frameBlock_apply (c : Dev nD) (t : Fin cfg0.N) (z : Fin 1) (r : Fin 64) (d : Fin 512) :
    (iblk m c 0 t : Vec F S1x64x512 .f32) (ix3 z r d)
      = m ((c : Thread nD τ).loc main_arg0) (ix3 (bat t.val) (frm t.val r) d) := by
  refine Eq.trans ?_ (congrFun (V_main_arg0 m c) _)
  show V m c main_arg0 (((cfg0.win 0).blk t).view.emb (ix3 z r d)) = V m c main_arg0 (ix3 (bat t.val) (frm t.val r) d)
  obtain ⟨⟨e0, e1, e2⟩, -⟩ := index_facts t
  refine congrArg (V m c main_arg0) (funext fun a => Fin.ext ?_)
  match a with
  | ⟨0, _⟩ => show win0_0.index t (0 : Fin 3) * 1 + 1 * z.val = t.val / 16 % 4; have := z.isLt; omega
  | ⟨1, _⟩ => show win0_0.index t (1 : Fin 3) * 64 + 1 * r.val = 64 * (t.val / 4 % 4) + r.val; omega
  | ⟨2, _⟩ => show win0_0.index t (2 : Fin 3) * 512 + 1 * d.val = d.val; omega

/-- The decoder block: step u, feature d. -/
theorem decoderBlock_apply (c : Dev nD) (t : Fin cfg0.N) (z : Fin 1) (u : Fin 64) (d : Fin 512) :
    (iblk m c 1 t : Vec F S1x64x512 .f32) (ix3 z u d)
      = m ((c : Thread nD τ).loc main_arg1) (ix3 (bat t.val) u d) := by
  refine Eq.trans ?_ (congrFun (V_main_arg1 m c) _)
  show V m c main_arg1 (((cfg0.win 1).blk t).view.emb (ix3 z u d)) = V m c main_arg1 (ix3 (bat t.val) u d)
  obtain ⟨-, ⟨e0, e1, e2⟩, -⟩ := index_facts t
  refine congrArg (V m c main_arg1) (funext fun a => Fin.ext ?_)
  match a with
  | ⟨0, _⟩ => show win0_1.index t (0 : Fin 3) * 1 + 1 * z.val = t.val / 16 % 4; have := z.isLt; omega
  | ⟨1, _⟩ => show win0_1.index t (1 : Fin 3) * 64 + 1 * u.val = u.val; omega
  | ⟨2, _⟩ => show win0_1.index t (2 : Fin 3) * 512 + 1 * d.val = d.val; omega

/-- The upper weight block: W1 at row d, column h. -/
theorem upperBlock_apply (c : Dev nD) (t : Fin cfg0.N) (d h : Fin 512) :
    (iblk m c 2 t : Vec F S512x512 .f32) (ix2 d h) = m ((c : Thread nD τ).loc main_arg2) (ix2 (encRow d) h) := by
  have e : (iblk m c 2 t : Vec F S512x512 .f32) (ix2 d h) = (V m c main_v0 : S512x512.Idx → Elt F .f32) (ix2 d h) := by
    show V m c main_v0 (((cfg0.win 2).blk t).view.emb (ix2 d h)) = V m c main_v0 (ix2 d h)
    obtain ⟨-, -, ⟨e0, e1⟩, -⟩ := index_facts t
    refine congrArg (V m c main_v0) (funext fun a => Fin.ext ?_)
    match a with
    | ⟨0, _⟩ => show win0_2.index t (0 : Fin 2) * 512 + 1 * d.val = d.val; omega
    | ⟨1, _⟩ => show win0_2.index t (1 : Fin 2) * 512 + 1 * h.val = h.val; omega
  rw [e, upper_eq]
  refine (Cert.Dense.sliceRows_apply 0 _ _ d h (by have := d.isLt; omega)).trans ?_
  refine congrArg _ (funext fun a => Fin.ext ?_)
  match a with
  | ⟨0, _⟩ => show 0 + d.val = d.val; omega
  | ⟨1, _⟩ => rfl

/-- The lower weight block: W1 at row 512 + d, column h. -/
theorem lowerBlock_apply (c : Dev nD) (t : Fin cfg0.N) (d h : Fin 512) :
    (iblk m c 3 t : Vec F S512x512 .f32) (ix2 d h) = m ((c : Thread nD τ).loc main_arg2) (ix2 (decRow d) h) := by
  have e : (iblk m c 3 t : Vec F S512x512 .f32) (ix2 d h) = (V m c main_v1 : S512x512.Idx → Elt F .f32) (ix2 d h) := by
    show V m c main_v1 (((cfg0.win 3).blk t).view.emb (ix2 d h)) = V m c main_v1 (ix2 d h)
    obtain ⟨-, -, -, ⟨e0, e1⟩, -⟩ := index_facts t
    refine congrArg (V m c main_v1) (funext fun a => Fin.ext ?_)
    match a with
    | ⟨0, _⟩ => show win0_3.index t (0 : Fin 2) * 512 + 1 * d.val = d.val; omega
    | ⟨1, _⟩ => show win0_3.index t (1 : Fin 2) * 512 + 1 * h.val = h.val; omega
  rw [e, lower_eq]
  exact Cert.Dense.sliceRows_apply 512 _ _ d h (by have := d.isLt; omega)

/-- The bias block: b1 at h. -/
theorem biasBlock_apply (c : Dev nD) (t : Fin cfg0.N) (z : Fin 1) (h : Fin 512) :
    (iblk m c 4 t : Vec F S1x512 .f32) (ix2 z h) = m ((c : Thread nD τ).loc main_arg3) (ix1 h) := by
  have e : (iblk m c 4 t : Vec F S1x512 .f32) (ix2 z h) = (V m c main_v2 : S1x512.Idx → Elt F .f32) (ix2 z h) := by
    show V m c main_v2 (((cfg0.win 4).blk t).view.emb (ix2 z h)) = V m c main_v2 (ix2 z h)
    obtain ⟨-, -, -, -, ⟨e0, e1⟩, -⟩ := index_facts t
    refine congrArg (V m c main_v2) (funext fun a => Fin.ext ?_)
    match a with
    | ⟨0, _⟩ => show win0_4.index t (0 : Fin 2) * 1 + 1 * z.val = z.val; omega
    | ⟨1, _⟩ => show win0_4.index t (1 : Fin 2) * 512 + 1 * h.val = h.val; omega
  rw [e, biasRow_eq]
  exact shapeCast_a_1a_apply _ _ z h

/-- The W2 block: row h, column q of the point's vocabulary tile. -/
theorem vocabBlock_apply (c : Dev nD) (t : Fin cfg0.N) (h : Fin 512) (q : Fin 256) :
    (iblk m c 5 t : Vec F S512x256 .f32) (ix2 h q) = m ((c : Thread nD τ).loc main_arg4) (ix2 h (voc t.val q)) := by
  refine Eq.trans ?_ (congrFun (V_main_arg4 m c) _)
  show V m c main_arg4 (((cfg0.win 5).blk t).view.emb (ix2 h q)) = V m c main_arg4 (ix2 h (voc t.val q))
  obtain ⟨-, -, -, -, -, ⟨e0, e1⟩, -⟩ := index_facts t
  refine congrArg (V m c main_arg4) (funext fun a => Fin.ext ?_)
  match a with
  | ⟨0, _⟩ => show win0_5.index t (0 : Fin 2) * 512 + 1 * h.val = h.val; omega
  | ⟨1, _⟩ => show win0_5.index t (1 : Fin 2) * 256 + 1 * q.val = 256 * (t.val % 4) + q.val; omega

end Cert.KernelIdeal.Blocks

end
-- ==== Proof.Carried.lean ====
/-
  What the carried buffer and the output block hold after each grid point.

  The carried buffer is rewritten whole at the first vocabulary tile of each (batch entry, frame tile) pair and only
  read at the three tiles that follow, which belong to the same pair: so after EVERY point n it holds the hidden
  activations of the pair of n — rows 64 · ((n / 4) mod 4) … + 63 of batch entry n / 16 against all 64 decoder steps.
  By induction on the point: at a first tile the body's stored value is the hidden tile of the blocks loaded, which are
  the pair's rows of the arguments; at a later tile the buffer is what the point before left, and the point before has
  the same pair.

  The output block after point n is then, in both cases, the product of that hidden tile with the point's tile of W2:
  at (0, r, u, q) the logit of frame 64 · ((n / 4) mod 4) + r, step u, vocabulary entry 256 · (n mod 4) + q.
-/
import proofs.«142067_j8641474199710_1_alg».proof.Proof.Gen.KernelIdeal.Frame
import proofs.«142067_j8641474199710_1_alg».proof.Proof.Pieces
import proofs.«142067_j8641474199710_1_alg».proof.Proof.Payloads
import proofs.«142067_j8641474199710_1_alg».proof.Proof.Blocks
import proofs.«142067_j8641474199710_1_alg».proof.Proof.Spec

noncomputable section

namespace Cert.KernelIdeal.Carried

open Cert.KernelIdeal Cert.KernelIdeal.Gen Idealize.ShloMosaic Idealize.ShloMosaic.TcCoe Idealize.SL.Sem
open Idealize.ShloMosaic.ValueIdx Cert.JointSpec Cert.KernelIdeal.Blocks

variable (m : (ℓ : Loc nD τ sig) → Buf (Elt Ideal) ℓ)

/-- The hidden activation of row r of the frame tile of grid point n, decoder step u, unit h. -/
def hiddenAt (c : Dev nD) (n : ℕ) (r u : Fin 64) (h : Fin 512) : EReal :=
  hidden (m ((c : Thread nD τ).loc main_arg0)) (m ((c : Thread nD τ).loc main_arg1)) (m ((c : Thread nD τ).loc main_arg2)) (m ((c : Thread nD τ).loc main_arg3)) (bat n) (frm n r) u h

/-- The hidden activations of the (batch entry, frame tile) pair of grid point n, as a [64, 64, 512] tile. -/
def hiddenTile (c : Dev nD) (n : ℕ) : FVec Ideal S64x64x512 .bf16 := fun j => hiddenAt m c n (j 0) (j 1) (j 2)

/-- Two grid points of one (batch entry, frame tile) pair have one hidden tile. -/
theorem hiddenTile_congr (c : Dev nD) (n n' : ℕ) (h : n / 4 = n' / 4) : hiddenTile m c n = hiddenTile m c n' := by
  have hb : bat n = bat n' := Fin.ext (by show n / 16 % 4 = n' / 16 % 4; omega)
  have hf : ∀ r : Fin 64, frm n r = frm n' r := fun r => Fin.ext (by show 64 * (n / 4 % 4) + r.val = 64 * (n' / 4 % 4) + r.val; rw [h])
  have e : ∀ (r u : Fin 64) (k : Fin 512), hiddenAt m c n r u k = hiddenAt m c n' r u k := fun r u k => by
    unfold hiddenAt
    rw [hb, hf]
  funext j
  exact e (j 0) (j 1) (j 2)

/-- The body's hidden tile of the blocks loaded at point t is the hidden tile of t's pair. -/
theorem hidden_of_blocks (c : Dev nD) (t : Fin cfg0.N) :
    k0_pay1 (F := Ideal) (iblk m c 0 t) (iblk m c 1 t) (iblk m c 2 t) (iblk m c 3 t) (iblk m c 4 t) = hiddenTile m c t.val := by
  funext j
  obtain ⟨r, u, h, rfl⟩ : ∃ (r : Fin 64) (u : Fin 64) (h : Fin 512), j = ix3 r u h := ⟨j 0, j 1, j 2, eq_ix3 j⟩
  refine (Payload.hiddenTile_apply (iblk m c 0 t) (iblk m c 1 t) (iblk m c 2 t) (iblk m c 3 t) (iblk m c 4 t) r u h).trans ?_
  exact congrArg Ideal.tanh (congrArg₂ (· + ·) (congrArg₂ (· + ·)
    (Finset.sum_congr rfl fun d _ => congrArg₂ (· * ·) (frameBlock_apply m c t 0 r d) (upperBlock_apply m c t d h))
    (Finset.sum_congr rfl fun d _ => congrArg₂ (· * ·) (decoderBlock_apply m c t 0 u d) (lowerBlock_apply m c t d h)))
    (biasBlock_apply m c t 0 h))

/-- At a first vocabulary tile the carried buffer ends at the hidden tile of the point's pair. -/
theorem carried_at_first (c : Dev nD) (t : Fin cfg0.N) (h0 : t.val % 4 = 0) :
    (outsAt0 m c t.val t.isLt).2 = hiddenTile m c t.val := by
  rw [outsAt0_A m c t h0]
  dsimp only
  exact (Pieces.carried_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) (iblk m c 5 t)).trans (hidden_of_blocks m c t)

/-- After every grid point the carried buffer holds the hidden tile of that point's pair. -/
theorem carried_eq (c : Dev nD) : ∀ (n : ℕ) (hn : n < cfg0.N), (outsAt0 m c n hn).2 = hiddenTile m c n
  | 0, hn => carried_at_first m c ⟨0, hn⟩ rfl
  | n + 1, hn => by
    by_cases h0 : (n + 1) % 4 = 0
    · exact carried_at_first m c ⟨n + 1, hn⟩ h0
    · have ih := carried_eq c n (Nat.lt_of_succ_lt hn)
      have e : hiddenTile m c n = hiddenTile m c (n + 1) := hiddenTile_congr m c n (n + 1) (by omega)
      rw [outsAt0_B m c ⟨n + 1, hn⟩ h0]
      dsimp only
      unfold sout0_B_0
      exact ih.trans e

/-- After every grid point the output block holds the hidden tile of the point's pair against the point's W2 tile. -/
theorem out_eq (c : Dev nD) (t : Fin cfg0.N) :
    (outsAt0 m c t.val t.isLt).1 = k0_pay2 (F := Ideal) (hiddenTile m c t.val) (iblk m c 5 t) := by
  by_cases h0 : t.val % 4 = 0
  · rw [outsAt0_A m c t h0]
    dsimp only
    refine (Pieces.out_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) (iblk m c 5 t)).trans ?_
    exact congrArg (fun X => k0_pay2 (F := Ideal) X (iblk m c 5 t)) (hidden_of_blocks m c t)
  · have ih := carried_eq m c (t.val - 1) (Nat.lt_of_le_of_lt (Nat.sub_le _ _) t.isLt)
    have e : hiddenTile m c (t.val - 1) = hiddenTile m c t.val := hiddenTile_congr m c (t.val - 1) t.val (by omega)
    rw [outsAt0_B m c t h0]
    dsimp only
    refine (Pieces.out_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) (iblk m c 5 t)
      (outsAt0 m c (t.val - 1) (Nat.lt_of_le_of_lt (Nat.sub_le _ _) t.isLt)).2).trans ?_
    exact congrArg (fun X => k0_pay2 (F := Ideal) X (iblk m c 5 t)) (ih.trans e)

/-- The output block after point t, at (0, r, u, q): the logit of the point's batch entry, frame, step and vocabulary entry. -/
theorem outBlock_apply (c : Dev nD) (t : Fin cfg0.N) (z : Fin 1) (r u : Fin 64) (q : Fin 256) :
    (outsAt0 m c t.val t.isLt).1 (ix4 z r u q)
      = logits (m ((c : Thread nD τ).loc main_arg0)) (m ((c : Thread nD τ).loc main_arg1)) (m ((c : Thread nD τ).loc main_arg2)) (m ((c : Thread nD τ).loc main_arg3)) (m ((c : Thread nD τ).loc main_arg4)) (ix4 (bat t.val) (frm t.val r) u (voc t.val q)) := by
  rw [out_eq]
  refine (Payload.outTile_apply (hiddenTile m c t.val) (iblk m c 5 t) z r u q).trans ?_
  exact Finset.sum_congr rfl fun h _ => congrArg₂ (· * ·) rfl (vocabBlock_apply m c t h q)

end Cert.KernelIdeal.Carried

end
-- ==== Proof.KernelRun.lean ====
/-
  The kernel's result array after the run is the specification's logits.

  Every grid point writes its output block back, to batch entry n / 16, frames 64 · ((n / 4) mod 4) … + 63, all 64
  steps, vocabulary entries 256 · (n mod 4) … + 255; the block holds the logits at exactly those indices, so what a
  point writes back is its block of the logits array. The 64 blocks tile the result array — the point that covers
  (b, t, u, v) is 16 · b + 4 · (t / 64) + v / 256 — so the array ends holding the logits everywhere.
-/
import proofs.«142067_j8641474199710_1_alg».proof.Proof.Gen.KernelIdeal.Value
import proofs.«142067_j8641474199710_1_alg».proof.Proof.Carried

noncomputable section

namespace Cert.KernelIdeal.KernelRun

open Cert.KernelIdeal Cert.KernelIdeal.Gen Idealize.ShloMosaic Idealize.ShloMosaic.TcCoe Idealize.SL.Sem
open Idealize.ShloMosaic.Pipeline (Dat)
open Idealize.ShloMosaic.ValueIdx Cert.JointSpec Cert.KernelIdeal.Blocks

variable (m : (ℓ : Loc nD τ sig) → Buf (Elt Ideal) ℓ) (ρ : Dev nD → PrngReg)

/-- The output block after point t at an index y of the block is the logits array at y's place in point t's block. -/
theorem block_point (c : Dev nD) (t : Fin cfg0.N) (y : S1x64x64x256.Idx) :
    (outsAt0 m c t.val t.isLt).1 y = (logits (m ((c : Thread nD τ).loc main_arg0)) (m ((c : Thread nD τ).loc main_arg1)) (m ((c : Thread nD τ).loc main_arg2)) (m ((c : Thread nD τ).loc main_arg3)) (m ((c : Thread nD τ).loc main_arg4))) (((cfg0.win 6).blk t).view.emb y) := by
  obtain ⟨z, r, u, q, rfl⟩ : ∃ (z : Fin 1) (r : Fin 64) (u : Fin 64) (q : Fin 256), y = ix4 z r u q :=
    ⟨y 0, y 1, y 2, y 3, eq_ix4 y⟩
  rw [Carried.outBlock_apply]
  obtain ⟨-, -, -, -, -, -, ⟨e0, e1, e2, e3⟩⟩ := index_facts t
  refine congrArg (logits (m ((c : Thread nD τ).loc main_arg0)) (m ((c : Thread nD τ).loc main_arg1)) (m ((c : Thread nD τ).loc main_arg2)) (m ((c : Thread nD τ).loc main_arg3)) (m ((c : Thread nD τ).loc main_arg4))) (funext fun a => Fin.ext ?_)
  match a with
  | ⟨0, _⟩ => show t.val / 16 % 4 = win0_6.index t (0 : Fin 4) * 1 + 1 * z.val; have := z.isLt; omega
  | ⟨1, _⟩ => show 64 * (t.val / 4 % 4) + r.val = win0_6.index t (1 : Fin 4) * 64 + 1 * r.val; omega
  | ⟨2, _⟩ => show u.val = win0_6.index t (2 : Fin 4) * 64 + 1 * u.val; omega
  | ⟨3, _⟩ => show 256 * (t.val % 4) + q.val = win0_6.index t (3 : Fin 4) * 256 + 1 * q.val; omega

/-- What point t writes back is its block of the logits array. -/
theorem flushed_eq (c : Dev nD) (t : Fin cfg0.N) :
    (dats m 0 c).flushed 6 t = ((cfg0.win 6).blk t).view.read (Elt Ideal) (logits (m ((c : Thread nD τ).loc main_arg0)) (m ((c : Thread nD τ).loc main_arg1)) (m ((c : Thread nD τ).loc main_arg2)) (m ((c : Thread nD τ).loc main_arg3)) (m ((c : Thread nD τ).loc main_arg4))) := by
  rw [Value.flushed6]
  funext j
  exact block_point m c t j

/-- An index of the result array is in point t's block iff each coordinate is in the block's range on its axis. -/
theorem mem_block (t : Fin cfg0.N) (i : S4x256x64x1024.Idx) :
    i ∈ ((cfg0.win 6).blk t).view.set ↔ ∀ a : Fin 4, win0_6.index t a * S1x64x64x256.size a ≤ (i a).val
      ∧ (i a).val < win0_6.index t a * S1x64x64x256.size a + S1x64x64x256.size a := by
  show i ∈ ((View.whole main_v3).slice (win0_6.rect t)).set ↔ _
  rw [View.set_slice_whole, Rect.mem_set_unit]
  exact Iff.rfl

/-- Every index of the result array is in some point's block. -/
theorem covered (i : S4x256x64x1024.Idx) :
    ∃ t : Fin cfg0.N, (cfg0.win 6).flush t = true ∧ i ∈ ((cfg0.win 6).blk t).view.set := by
  have h0 : (i 0).val < 4 := (i 0).isLt
  have h1 : (i 1).val < 256 := (i 1).isLt
  have h2 : (i 2).val < 64 := (i 2).isLt
  have h3 : (i 3).val < 1024 := (i 3).isLt
  have hN : cfg0.N = 64 := N_0
  obtain ⟨n, hn⟩ : ∃ n : ℕ, n = 16 * (i 0).val + 4 * ((i 1).val / 64) + (i 3).val / 256 := ⟨_, rfl⟩
  have hlt : n < cfg0.N := by rw [hN]; omega
  refine ⟨⟨n, hlt⟩, flush0_6 _, ?_⟩
  rw [mem_block]
  obtain ⟨-, -, -, -, -, -, ⟨e0, e1, e2, e3⟩⟩ := index_facts ⟨n, hlt⟩
  have e0' : win0_6.index ⟨n, hlt⟩ (0 : Fin 4) = n / 16 % 4 := e0
  have e1' : win0_6.index ⟨n, hlt⟩ (1 : Fin 4) = n / 4 % 4 := e1
  have e2' : win0_6.index ⟨n, hlt⟩ (2 : Fin 4) = 0 := e2
  have e3' : win0_6.index ⟨n, hlt⟩ (3 : Fin 4) = n % 4 := e3
  intro a
  match a with
  | ⟨0, _⟩ =>
    show win0_6.index ⟨n, hlt⟩ (0 : Fin 4) * 1 ≤ (i 0).val ∧ (i 0).val < win0_6.index ⟨n, hlt⟩ (0 : Fin 4) * 1 + 1
    rw [e0']; omega
  | ⟨1, _⟩ =>
    show win0_6.index ⟨n, hlt⟩ (1 : Fin 4) * 64 ≤ (i 1).val ∧ (i 1).val < win0_6.index ⟨n, hlt⟩ (1 : Fin 4) * 64 + 64
    rw [e1']; omega
  | ⟨2, _⟩ =>
    show win0_6.index ⟨n, hlt⟩ (2 : Fin 4) * 64 ≤ (i 2).val ∧ (i 2).val < win0_6.index ⟨n, hlt⟩ (2 : Fin 4) * 64 + 64
    rw [e2']; omega
  | ⟨3, _⟩ =>
    show win0_6.index ⟨n, hlt⟩ (3 : Fin 4) * 256 ≤ (i 3).val ∧ (i 3).val < win0_6.index ⟨n, hlt⟩ (3 : Fin 4) * 256 + 256
    rw [e3']; omega

/-- The result array after the run is the logits array. -/
theorem final (c : Dev nD) : (dats m 0 c).arrAt 6 cfg0.N = (logits (m ((c : Thread nD τ).loc main_arg0)) (m ((c : Thread nD τ).loc main_arg1)) (m ((c : Thread nD τ).loc main_arg2)) (m ((c : Thread nD τ).loc main_arg3)) (m ((c : Thread nD τ).loc main_arg4))) :=
  (dats m 0 c).arrAt_eq_of_cover 6 (logits (m ((c : Thread nD τ).loc main_arg0)) (m ((c : Thread nD τ).loc main_arg1)) (m ((c : Thread nD τ).loc main_arg2)) (m ((c : Thread nD τ).loc main_arg3)) (m ((c : Thread nD τ).loc main_arg4))) (fun t _ => flushed_eq m c t) covered

/-- The run, read: the result array at the logits of the argument arrays, the arguments unchanged. -/
theorem run : θ_run defs (onTc (τ := τ) (main (F := Ideal))) ⟨m, fun _ => 0, ρ⟩ fun r => ∀ c : Dev nD,
      r.2.mem ((c : Thread nD τ).loc main_v3) = (logits (m ((c : Thread nD τ).loc main_arg0)) (m ((c : Thread nD τ).loc main_arg1)) (m ((c : Thread nD τ).loc main_arg2)) (m ((c : Thread nD τ).loc main_arg3)) (m ((c : Thread nD τ).loc main_arg4)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.KernelRun

end
-- ==== Proof.lean ====
/-
  The kernel computes, tile by tile, what the reference computes in one pass:

      logits[b, t, u, v] = Σ_h tanh( (Σ_d enc[b,t,d] · W1[d,h] + Σ_d dec[b,u,d] · W1[512+d,h]) + b1[h] ) · W2[h,v].

  The reference is that formula read one operation at a time (Proof/RefIsSpec.lean). The kernel walks a 4 × 4 × 4 grid
  of (batch entry, frame tile, vocabulary tile); at the first vocabulary tile of a (batch entry, frame tile) pair it
  computes the pair's hidden activations into a buffer it keeps, and at every vocabulary tile it multiplies that buffer
  with a 256-column tile of W2 and writes the block back. After every point the kept buffer holds the hidden
  activations of that point's pair (Proof/Carried.lean, by induction on the point), so every block written back is a
  block of the logits, and the 64 blocks tile the result (Proof/KernelRun.lean). Over the extended reals the roundings
  to a narrower float format are the identity and each product into a zero accumulator is the plain sum, in the same
  grouping on both sides, so no finiteness of the inputs is used.

  The idealized kernel is the kernel's own text read over the extended reals (the idealization rewrote nothing), and
  the three programs' frames are their runs with the results forgotten.
-/
import proofs.«142067_j8641474199710_1_alg».proof.Defs
import proofs.«142067_j8641474199710_1_alg».proof.Proof.Gen.Kernel
import proofs.«142067_j8641474199710_1_alg».proof.Proof.Gen.Kernel.Skeleton
import proofs.«142067_j8641474199710_1_alg».proof.Proof.Gen.Kernel.Launch
import proofs.«142067_j8641474199710_1_alg».proof.Proof.Gen.Kernel.Points
import proofs.«142067_j8641474199710_1_alg».proof.Proof.Gen.Kernel.Frame
import proofs.«142067_j8641474199710_1_alg».proof.Proof.Gen.KernelIdeal
import proofs.«142067_j8641474199710_1_alg».proof.Proof.Gen.KernelIdeal.Skeleton
import proofs.«142067_j8641474199710_1_alg».proof.Proof.Gen.KernelIdeal.Launch
import proofs.«142067_j8641474199710_1_alg».proof.Proof.Gen.KernelIdeal.Points
import proofs.«142067_j8641474199710_1_alg».proof.Proof.Gen.KernelIdeal.Frame
import proofs.«142067_j8641474199710_1_alg».proof.Proof.Gen.ReferenceIdeal
import proofs.«142067_j8641474199710_1_alg».proof.Proof.Gen.KernelIdeal.Value
import proofs.«142067_j8641474199710_1_alg».proof.Proof.Gen.ReferenceIdeal.Run
import proofs.«142067_j8641474199710_1_alg».proof.Proof.Gen.ReferenceIdeal.Read
import proofs.«142067_j8641474199710_1_alg».proof.Proof.Gen.Pre_finite_inputs
import proofs.«142067_j8641474199710_1_alg».proof.Proof.Spec
import proofs.«142067_j8641474199710_1_alg».proof.Proof.RefIsSpec
import proofs.«142067_j8641474199710_1_alg».proof.Proof.KernelRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Over the extended reals the kernel's result array ends at the logits of its arguments and the reference's at the
    logits of arguments that agree with them. -/
theorem algebraic : Cert.algebraic_KernelIdeal_ReferenceIdeal := by
  intro m ρ m' ρ' _ hagree
  refine ⟨fun c => Cert.JointSpec.logits (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.result_eq_logits,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
